-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x1600000 : Shape := ⟨2, ![2, 1600000]⟩
abbrev S100x100 : Shape := ⟨2, ![100, 100]⟩
abbrev S100 : Shape := ⟨1, ![100]⟩
abbrev S60x100 : Shape := ⟨2, ![60, 100]⟩
abbrev S60 : Shape := ⟨1, ![60]⟩
abbrev S100x60 : Shape := ⟨2, ![100, 60]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_
  bcast_S_S60x100 : S_.BroadcastsInDim S60x100 (![] : Fin 0 → Fin S60x100.rank)
  reducesTo_S60x100_S_d0_1 : S60x100.ReducesTo [0, 1] S_
  bcast_S_S60 : S_.BroadcastsInDim S60 (![] : Fin 0 → Fin S60.rank)
  reducesTo_S60_S_d0 : S60.ReducesTo [0] S_
  bcast_S_S100x60 : S_.BroadcastsInDim S100x60 (![] : Fin 0 → Fin S100x60.rank)
  reducesTo_S100x60_S_d0_1 : S100x60.ReducesTo [0, 1] S_

variable [Facts]

def fn_part1 {F : FTy → Type} [FloatOps F] (main_arg5 : FVec F S60 .f32) (main_arg6 : FVec F S100x60 .f32) (main_arg7 : FVec F S100 .f32) (main_v13 : IVec S_ 1) (main_v16 : IVec S60x100 1) : IVec S_ 1 :=
  let main_c_5 : IVec S_ 1 := constantI S_ 1 1#1
  let main_v17 : IVec S_ 1 := (fun x v => Host.reduce IntOp.andi x v reducesTo_S60x100_S_d0_1 h_S_) main_v16 main_c_5
  let main_v18 : IVec S_ 1 := andi main_v13 main_v17
  let main_v19 : FVec F S60 .f32 := Host.absf main_arg5
  let main_cst_6 : FVec F S_ .f32 := constant S_ .f32 0x7F800000#32
  let main_v20 : FVec F S60 .f32 := broadcastInDim S60 ![] bcast_S_S60 main_cst_6
  let main_v21 : IVec S60 1 := cmpf .olt main_v19 main_v20
  let main_c_7 : IVec S_ 1 := constantI S_ 1 1#1
  let main_v22 : IVec S_ 1 := (fun x v => Host.reduce IntOp.andi x v reducesTo_S60_S_d0 h_S_) main_v21 main_c_7
  let main_v23 : IVec S_ 1 := andi main_v18 main_v22
  let main_v24 : FVec F S100x60 .f32 := Host.absf main_arg6
  let main_cst_8 : FVec F S_ .f32 := constant S_ .f32 0x7F800000#32
  let main_v25 : FVec F S100x60 .f32 := broadcastInDim S100x60 ![] bcast_S_S100x60 main_cst_8
  let main_v26 : IVec S100x60 1 := cmpf .olt main_v24 main_v25
  let main_c_9 : IVec S_ 1 := constantI S_ 1 1#1
  let main_v27 : IVec S_ 1 := (fun x v => Host.reduce IntOp.andi x v reducesTo_S100x60_S_d0_1 h_S_) main_v26 main_c_9
  let main_v28 : IVec S_ 1 := andi main_v23 main_v27
  let main_v29 : FVec F S100 .f32 := Host.absf main_arg7
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  main_v33

def fn {F : FTy → Type} [FloatOps F] (main_arg0 : FVec F S100000x100 .f32) (main_arg1 : IVec S2x1600000 32) (main_arg2 : FVec F S100x100 .f32) (main_arg3 : FVec F S100 .f32) (main_arg4 : FVec F S60x100 .f32) (main_arg5 : FVec F S60 .f32) (main_arg6 : FVec F S100x60 .f32) (main_arg7 : FVec F S100 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S100x100 .f32 := Host.absf main_arg2
  let main_cst_0 : FVec F S_ .f32 := constant S_ .f32 0x7F800000#32
  let main_v5 : FVec F S100x100 .f32 := broadcastInDim S100x100 ![] bcast_S_S100x100 main_cst_0
  let main_v6 : IVec S100x100 1 := cmpf .olt main_v4 main_v5
  let main_c_1 : IVec S_ 1 := constantI S_ 1 1#1
  let main_v7 : IVec S_ 1 := (fun x v => Host.reduce IntOp.andi x v reducesTo_S100x100_S_d0_1 h_S_) main_v6 main_c_1
  let main_v8 : IVec S_ 1 := andi main_v3 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S60x100 .f32 := Host.absf main_arg4
  let main_cst_4 : FVec F S_ .f32 := constant S_ .f32 0x7F800000#32
  let main_v15 : FVec F S60x100 .f32 := broadcastInDim S60x100 ![] bcast_S_S60x100 main_cst_4
  let main_v16 : IVec S60x100 1 := cmpf .olt main_v14 main_v15
  fn_part1 (F := F) main_arg5 main_arg6 main_arg7 main_v13 main_v16
-- ==== Kernel.lean ====
abbrev S100000x100 : Shape := ⟨2, ![100000, 100]⟩
abbrev S2x1600000 : Shape := ⟨2, ![2, 1600000]⟩
abbrev S100x100 : Shape := ⟨2, ![100, 100]⟩
abbrev S100 : Shape := ⟨1, ![100]⟩
abbrev S60x100 : Shape := ⟨2, ![60, 100]⟩
abbrev S60 : Shape := ⟨1, ![60]⟩
abbrev S100x60 : Shape := ⟨2, ![100, 60]⟩
abbrev S10000x100 : Shape := ⟨2, ![10000, 100]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x100 : Shape := ⟨2, ![1700000, 100]⟩
abbrev S1x100 : Shape := ⟨2, ![1, 100]⟩
abbrev S1x60 : Shape := ⟨2, ![1, 60]⟩
abbrev S10000x60 : Shape := ⟨2, ![10000, 60]⟩

abbrev nBuf : Space → Nat
  | .hbm => 69
  | .vmem => 14
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S100x100, .f32⟩
  | .hbm, ⟨3, _⟩ => ⟨S100, .f32⟩
  | .hbm, ⟨4, _⟩ => ⟨S60x100, .f32⟩
  | .hbm, ⟨5, _⟩ => ⟨S60, .f32⟩
  | .hbm, ⟨6, _⟩ => ⟨S100x60, .f32⟩
  | .hbm, ⟨7, _⟩ => ⟨S100, .f32⟩
  | .hbm, ⟨8, _⟩ => ⟨S100000x100, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x100, .f32⟩
  | .hbm, ⟨58, _⟩ => ⟨S1700000x1, .f32⟩
  | .hbm, ⟨59, _⟩ => ⟨S1700000x100, .f32⟩
  | .hbm, ⟨60, _⟩ => ⟨S1700000x100, .f32⟩
  | .hbm, ⟨61, _⟩ => ⟨S_, .f32⟩
  | .hbm, ⟨62, _⟩ => ⟨S100000x100, .f32⟩
  | .hbm, ⟨63, _⟩ => ⟨S1700000x1, .i32⟩
  | .hbm, ⟨64, _⟩ => ⟨S100000x100, .f32⟩
  | .hbm, ⟨65, _⟩ => ⟨S1x100, .f32⟩
  | .hbm, ⟨66, _⟩ => ⟨S1x60, .f32⟩
  | .hbm, ⟨67, _⟩ => ⟨S1x100, .f32⟩
  | .hbm, ⟨68, _⟩ => ⟨S100000x100, .f32⟩
  | .local _ .vmem, ⟨0, _⟩ => ⟨S10000x100, .f32⟩
  | .local _ .vmem, ⟨1, _⟩ => ⟨S10000x100, .f32⟩
  | .local _ .vmem, ⟨2, _⟩ => ⟨S100x100, .f32⟩
  | .local _ .vmem, ⟨3, _⟩ => ⟨S10000x100, .f32⟩
  | .local _ .vmem, ⟨4, _⟩ => ⟨S10000x100, .f32⟩
  | .local _ .vmem, ⟨5, _⟩ => ⟨S10000x100, .f32⟩
  | .local _ .vmem, ⟨6, _⟩ => ⟨S10000x100, .f32⟩
  | .local _ .vmem, ⟨7, _⟩ => ⟨S1x100, .f32⟩
  | .local _ .vmem, ⟨8, _⟩ => ⟨S60x100, .f32⟩
  | .local _ .vmem, ⟨9, _⟩ => ⟨S1x60, .f32⟩
  | .local _ .vmem, ⟨10, _⟩ => ⟨S100x60, .f32⟩
  | .local _ .vmem, ⟨11, _⟩ => ⟨S1x100, .f32⟩
  | .local _ .vmem, ⟨12, _⟩ => ⟨S10000x100, .f32⟩
  | .local _ .vmem, ⟨13, _⟩ => ⟨S10000x100, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S60x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x60 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S100x60 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x100 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x100 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S10000x100_S10000x100_0_0 : ∀ a, (![0, 0] : Fin 2 → Nat) a + S10000x100.size a ≤ S10000x100.size a
  h_S10000x100 : 0 < S10000x100.numel
  bitsLt_bf16_f32 : FTy.bits .bf16 < FTy.bits .f32
  inb_S100x100_S100x100_0_0 : ∀ a, (![0, 0] : Fin 2 → Nat) a + S100x100.size a ≤ S100x100.size a
  h_S100x100 : 0 < S100x100.numel
  transposes_S100x100_p1_0_S100x100 : S100x100.Transposes [1, 0] S100x100
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x100_0_1 : S1700000x1.BroadcastsInDim S1700000x100 (![0, 1] : Fin 2 → Fin S1700000x100.rank)
  bcast_S_S100000x100 : S_.BroadcastsInDim S100000x100 (![] : Fin 0 → Fin S100000x100.rank)
  shapeCasts_S100_S1x100 : S100.ShapeCasts S1x100
  shapeCasts_S60_S1x60 : S60.ShapeCasts S1x60
  shapeCasts_S10000x100_S10000x100 : S10000x100.ShapeCasts S10000x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S10000x100 : S1x100.Broadcasts S10000x100
  inb_S60x100_S60x100_0_0 : ∀ a, (![0, 0] : Fin 2 → Nat) a + S60x100.size a ≤ S60x100.size a
  h_S60x100 : 0 < S60x100.numel
  transposes_S60x100_p1_0_S100x60 : S60x100.Transposes [1, 0] S100x60
  inb_S1x60_S1x60_0_0 : ∀ a, (![0, 0] : Fin 2 → Nat) a + S1x60.size a ≤ S1x60.size a
  h_S1x60 : 0 < S1x60.numel
  shapeCasts_S1x60_S1x60 : S1x60.ShapeCasts S1x60
  broadcasts_S1x60_S10000x60 : S1x60.Broadcasts S10000x60
  inb_S100x60_S100x60_0_0 : ∀ a, (![0, 0] : Fin 2 → Nat) a + S100x60.size a ≤ S100x60.size a
  h_S100x60 : 0 < S100x60.numel
  transposes_S100x60_p1_0_S60x100 : S100x60.Transposes [1, 0] S60x100
  dot_S10000x100_S100x100_S10000x100_1_0_0_1_n_n_wf : DotDims.WF S10000x100 S100x100 S10000x100 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x100_S1700000x1_S1700000x100_1_0_n_n_0_1_1100_wf : GatherDims.WF S100000x100 S1700000x1 S1700000x100 [1] [0] [] [0] [] 1 ![1, 100]
  scatter_S100000x100_S1700000x1_S1700000x100_1_0_0_1_wf : ScatterDims.WF S100000x100 S1700000x1 S1700000x100 [1] [0] [0] 1
  dot_S10000x100_S100x60_S10000x60_1_0_0_1_n_n_wf : DotDims.WF S10000x100 S100x60 S10000x60 [1] [0] [0] [1] [] []
  dot_S10000x60_S60x100_S10000x100_1_0_0_1_n_n_wf : DotDims.WF S10000x60 S60x100 S10000x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x100.size a ≤ S100000x100.size a
  hwx0_0 : ∀ i : grid0.Coords, EltTy.bits .f32 = 32 ∨ (Rect.block (s := S100000x100) S10000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x100.size a ≤ S100x100.size a
  hwx0_1 : ∀ i : grid0.Coords, EltTy.bits .f32 = 32 ∨ (Rect.block (s := S100x100) S100x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x100.size a ≤ S100000x100.size a
  hwx0_2 : ∀ i : grid0.Coords, EltTy.bits .f32 = 32 ∨ (Rect.block (s := S100000x100) S10000x100.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x100.size a ≤ S100000x100.size a
  hwx1_0 : ∀ i : grid1.Coords, EltTy.bits .f32 = 32 ∨ (Rect.block (s := S100000x100) S10000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x100.size a ≤ S1x100.size a
  hwx1_1 : ∀ i : grid1.Coords, EltTy.bits .f32 = 32 ∨ (Rect.block (s := S1x100) S1x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S60x100.size a ≤ S60x100.size a
  hwx1_2 : ∀ i : grid1.Coords, EltTy.bits .f32 = 32 ∨ (Rect.block (s := S60x100) S60x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x60.size a ≤ S1x60.size a
  hwx1_3 : ∀ i : grid1.Coords, EltTy.bits .f32 = 32 ∨ (Rect.block (s := S1x60) S1x60.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S100x60.size a ≤ S100x60.size a
  hwx1_4 : ∀ i : grid1.Coords, EltTy.bits .f32 = 32 ∨ (Rect.block (s := S100x60) S100x60.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x100.size a ≤ S1x100.size a
  hwx1_5 : ∀ i : grid1.Coords, EltTy.bits .f32 = 32 ∨ (Rect.block (s := S1x100) S1x100.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x100.size a ≤ S100000x100.size a
  hwx1_6 : ∀ i : grid1.Coords, EltTy.bits .f32 = 32 ∨ (Rect.block (s := S100000x100) S10000x100.size (cc1_transform_6 i) (hinb1_6 i)).WholeWords (EltTy.packing .f32)

variable [Facts₀]

def dot_S10000x100_S100x100_S10000x100_1_0_0_1_n_n : DotDims S10000x100 S100x100 S10000x100 where
  lhsContracting := [1]
  rhsContracting := [0]
  lhsNonContracting := [0]
  rhsNonContracting := [1]
  lhsBatch := []
  rhsBatch := []
  wf := dot_S10000x100_S100x100_S10000x100_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x100_S1700000x1_S1700000x100_1_0_n_n_0_1_1100 : GatherDims S100000x100 S1700000x1 S1700000x100 where
  offsetDims := [1]
  collapsedSliceDims := [0]
  operandBatchingDims := []
  startIndicesBatchingDims := []
  startIndexMap := [0]
  indexVectorDim := 1
  sliceSizes := ![1, 100]
  wf := gather_S100000x100_S1700000x1_S1700000x100_1_0_n_n_0_1_1100_wf
def scatter_S100000x100_S1700000x1_S1700000x100_1_0_0_1 : ScatterDims S100000x100 S1700000x1 S1700000x100 where
  updateWindowDims := [1]
  insertedWindowDims := [0]
  scatterDimsToOperandDims := [0]
  indexVectorDim := 1
  wf := scatter_S100000x100_S1700000x1_S1700000x100_1_0_0_1_wf
def dot_S10000x100_S100x60_S10000x60_1_0_0_1_n_n : DotDims S10000x100 S100x60 S10000x60 where
  lhsContracting := [1]
  rhsContracting := [0]
  lhsNonContracting := [0]
  rhsNonContracting := [1]
  lhsBatch := []
  rhsBatch := []
  wf := dot_S10000x100_S100x60_S10000x60_1_0_0_1_n_n_wf
def dot_S10000x60_S60x100_S10000x100_1_0_0_1_n_n : DotDims S10000x60 S60x100 S10000x100 where
  lhsContracting := [1]
  rhsContracting := [0]
  lhsNonContracting := [0]
  rhsNonContracting := [1]
  lhsBatch := []
  rhsBatch := []
  wf := dot_S10000x60_S60x100_S10000x100_1_0_0_1_n_n_wf

abbrev win0_0 : Pipeline.Window sig grid0 :=
  Pipeline.Window.ofSpec (Memref.whole main_arg0) S10000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S100x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x100.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S60x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x60.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S100x60.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x100.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S10000x100.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x100 : Shape := ⟨2, ![100000, 100]⟩
abbrev S2x1600000 : Shape := ⟨2, ![2, 1600000]⟩
abbrev S100x100 : Shape := ⟨2, ![100, 100]⟩
abbrev S100 : Shape := ⟨1, ![100]⟩
abbrev S60x100 : Shape := ⟨2, ![60, 100]⟩
abbrev S60 : Shape := ⟨1, ![60]⟩
abbrev S100x60 : Shape := ⟨2, ![100, 60]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x100 : Shape := ⟨2, ![1700000, 100]⟩
abbrev S1x100 : Shape := ⟨2, ![1, 100]⟩
abbrev S100000x60 : Shape := ⟨2, ![100000, 60]⟩
abbrev S1x60 : Shape := ⟨2, ![1, 60]⟩

abbrev nBuf : Space → Nat
  | .hbm => 84
  | .vmem => 0
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S100x100, .f32⟩
  | .hbm, ⟨3, _⟩ => ⟨S100, .f32⟩
  | .hbm, ⟨4, _⟩ => ⟨S60x100, .f32⟩
  | .hbm, ⟨5, _⟩ => ⟨S60, .f32⟩
  | .hbm, ⟨6, _⟩ => ⟨S100x60, .f32⟩
  | .hbm, ⟨7, _⟩ => ⟨S100, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100x100, .f32⟩
  | .hbm, ⟨49, _⟩ => ⟨S100000x100, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x100, .f32⟩
  | .hbm, ⟨59, _⟩ => ⟨S1700000x1, .f32⟩
  | .hbm, ⟨60, _⟩ => ⟨S1700000x100, .f32⟩
  | .hbm, ⟨61, _⟩ => ⟨S1700000x100, .f32⟩
  | .hbm, ⟨62, _⟩ => ⟨S_, .f32⟩
  | .hbm, ⟨63, _⟩ => ⟨S100000x100, .f32⟩
  | .hbm, ⟨64, _⟩ => ⟨S1700000x1, .i32⟩
  | .hbm, ⟨65, _⟩ => ⟨S100000x100, .f32⟩
  | .hbm, ⟨66, _⟩ => ⟨S1x100, .f32⟩
  | .hbm, ⟨67, _⟩ => ⟨S100000x100, .f32⟩
  | .hbm, ⟨68, _⟩ => ⟨S100000x100, .f32⟩
  | .hbm, ⟨69, _⟩ => ⟨S_, .f32⟩
  | .hbm, ⟨70, _⟩ => ⟨S100000x100, .f32⟩
  | .hbm, ⟨71, _⟩ => ⟨S100000x100, .f32⟩
  | .hbm, ⟨72, _⟩ => ⟨S100x60, .f32⟩
  | .hbm, ⟨73, _⟩ => ⟨S100000x60, .f32⟩
  | .hbm, ⟨74, _⟩ => ⟨S1x60, .f32⟩
  | .hbm, ⟨75, _⟩ => ⟨S100000x60, .f32⟩
  | .hbm, ⟨76, _⟩ => ⟨S100000x60, .f32⟩
  | .hbm, ⟨77, _⟩ => ⟨S100000x60, .f32⟩
  | .hbm, ⟨78, _⟩ => ⟨S60x100, .f32⟩
  | .hbm, ⟨79, _⟩ => ⟨S100000x100, .f32⟩
  | .hbm, ⟨80, _⟩ => ⟨S1x100, .f32⟩
  | .hbm, ⟨81, _⟩ => ⟨S100000x100, .f32⟩
  | .hbm, ⟨82, _⟩ => ⟨S100000x100, .f32⟩
  | .hbm, ⟨83, _⟩ => ⟨S100000x100, .f32⟩
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S100x100_S100x100_1_0 : S100x100.Transposes [1, 0] S100x100
  bcast_S1700000x1_S1700000x100_0_1 : S1700000x1.BroadcastsInDim S1700000x100 (![0, 1] : Fin 2 → Fin S1700000x100.rank)
  bcast_S_S100000x100 : S_.BroadcastsInDim S100000x100 (![] : Fin 0 → Fin S100000x100.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  transposes_S60x100_S100x60_1_0 : S60x100.Transposes [1, 0] S100x60
  bcast_S60_S1x60_1 : S60.BroadcastsInDim S1x60 (![1] : Fin 1 → Fin S1x60.rank)
  bcast_S1x60_S100000x60_0_1 : S1x60.BroadcastsInDim S100000x60 (![0, 1] : Fin 2 → Fin S100000x60.rank)
  transposes_S100x60_S60x100_1_0 : S100x60.Transposes [1, 0] S60x100
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x100_S100x100_S100000x100_1_0_0_1_n_n_wf : DotDims.WF S100000x100 S100x100 S100000x100 [1] [0] [0] [1] [] []
  gather_S100000x100_S1700000x1_S1700000x100_1_0_n_n_0_1_1100_wf : GatherDims.WF S100000x100 S1700000x1 S1700000x100 [1] [0] [] [0] [] 1 ![1, 100]
  scatter_S100000x100_S1700000x1_S1700000x100_1_0_0_1_wf : ScatterDims.WF S100000x100 S1700000x1 S1700000x100 [1] [0] [0] 1
  dot_S100000x100_S100x60_S100000x60_1_0_0_1_n_n_wf : DotDims.WF S100000x100 S100x60 S100000x60 [1] [0] [0] [1] [] []
  dot_S100000x60_S60x100_S100000x100_1_0_0_1_n_n_wf : DotDims.WF S100000x60 S60x100 S100000x100 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x100_S100x100_S100000x100_1_0_0_1_n_n : DotDims S100000x100 S100x100 S100000x100 where
  lhsContracting := [1]
  rhsContracting := [0]
  lhsNonContracting := [0]
  rhsNonContracting := [1]
  lhsBatch := []
  rhsBatch := []
  wf := dot_S100000x100_S100x100_S100000x100_1_0_0_1_n_n_wf
def gather_S100000x100_S1700000x1_S1700000x100_1_0_n_n_0_1_1100 : GatherDims S100000x100 S1700000x1 S1700000x100 where
  offsetDims := [1]
  collapsedSliceDims := [0]
  operandBatchingDims := []
  startIndicesBatchingDims := []
  startIndexMap := [0]
  indexVectorDim := 1
  sliceSizes := ![1, 100]
  wf := gather_S100000x100_S1700000x1_S1700000x100_1_0_n_n_0_1_1100_wf
def scatter_S100000x100_S1700000x1_S1700000x100_1_0_0_1 : ScatterDims S100000x100 S1700000x1 S1700000x100 where
  updateWindowDims := [1]
  insertedWindowDims := [0]
  scatterDimsToOperandDims := [0]
  indexVectorDim := 1
  wf := scatter_S100000x100_S1700000x1_S1700000x100_1_0_0_1_wf
def dot_S100000x100_S100x60_S100000x60_1_0_0_1_n_n : DotDims S100000x100 S100x60 S100000x60 where
  lhsContracting := [1]
  rhsContracting := [0]
  lhsNonContracting := [0]
  rhsNonContracting := [1]
  lhsBatch := []
  rhsBatch := []
  wf := dot_S100000x100_S100x60_S100000x60_1_0_0_1_n_n_wf
def dot_S100000x60_S60x100_S100000x100_1_0_0_1_n_n : DotDims S100000x60 S60x100 S100000x100 where
  lhsContracting := [1]
  rhsContracting := [0]
  lhsNonContracting := [0]
  rhsNonContracting := [1]
  lhsBatch := []
  rhsBatch := []
  wf := dot_S100000x60_S60x100_S100000x100_1_0_0_1_n_n_wf

class Facts : Prop extends Facts₀ where

variable [Facts]
-- ==== Proof.Spec.lean ====
/-
  The result of the graph-convolution block as ONE function of its arguments, on the extended reals.

  Nodes are the rows `r < 100000`, features the columns. With `x` the node features, `W` the convolution's weight,
  `b₀` its bias, `(W₁, b₁)` and `(W₂, b₂)` the two layers of the head:

    lin x W      r j = ∑ₖ x[r,k] · W[j,k]                                  (x · Wᵀ)
    agg              = the edge aggregation of `lin x W` (normalised gather / scatter-add over the edge list with
                       self loops): both programs apply the SAME chain of host operations to `lin x W` and the edge
                       list, so it stays an unopened function here (it is a parameter `a` of `head`)
    hidden a …   r k = tanh (∑ₗ max (a[r,l] + b₀[l]) 0 · W₁[k,l] + b₁[k])
    head a …     r j = tanh (∑ₖ hidden[r,k] · W₂[j,k] + b₂[j])

  Every sum is a finite sum of products in `EReal`; no law beyond commutativity of the index set is used anywhere, so
  nothing here asks the inputs to be finite.
-/
import Idealize.ShloMosaic.PureOps.Ideal
import Idealize.ShloMosaic.Lib.ValueIdx

noncomputable section

namespace Cert.GcnSpec

open Idealize.ShloMosaic Idealize.ShloMosaic.ValueIdx

/-- An array of extended reals of shape `[n0, n1]`. -/
abbrev Mat (n0 n1 : Nat) : Type := (⟨2, ![n0, n1]⟩ : Shape).Idx → EReal
/-- A vector of extended reals of length `n`. -/
abbrev Vect (n : Nat) : Type := (⟨1, ![n]⟩ : Shape).Idx → EReal

/-- The f32 pattern of `+0.0` read as an extended real (the number 0): the lower bound of the rectifier, the same
    word in both programs. -/
abbrev zeroWord : EReal := Ideal.ofBits .f32 0x00000000#32

/-- `x · Wᵀ`: row `r`, column `j` is `∑ₖ x[r,k] · W[j,k]`. -/
def lin (x : Mat 100000 100) (w : Mat 100 100) : Mat 100000 100 :=
  fun i => ∑ k : Fin 100, x (ix2 (i 0) k) * w (ix2 (i 1) k)

/-- The hidden layer at node `r`, unit `k`: the rectified, biased aggregate through `W₁`, then `tanh`. -/
def hidden (a : Mat 100000 100) (b0 : Vect 100) (w1 : Mat 60 100) (b1 : Vect 60) (r : Fin 100000) (k : Fin 60) : EReal :=
  Ideal.tanh ((∑ l : Fin 100, max (a (ix2 r l) + b0 (ix1 l)) zeroWord * w1 (ix2 k l)) + b1 (ix1 k))

/-- The head's output at node `i 0`, feature `i 1`. -/
def head (a : Mat 100000 100) (b0 : Vect 100) (w1 : Mat 60 100) (b1 : Vect 60) (w2 : Mat 100 60) (b2 : Vect 100) :
    Mat 100000 100 :=
  fun i => Ideal.tanh ((∑ k : Fin 60, hidden a b0 w1 b1 (i 0) k * w2 (ix2 (i 1) k)) + b2 (ix1 (i 1)))

end Cert.GcnSpec

end
-- ==== Proof.RefValue.lean ====
/-
  The reference's result as the specification's function of its arguments.

  Read one stage at a time (the read-at-an-index lemmas of the reference's run), the reference computes
  `head (agg (lin x W) e) b₀ W₁ b₁ W₂ b₂`: its `dot_general` of `x` with the transposed weight is `lin x W`; the chain of host
  operations from there to the scatter-add (degrees, their inverse square roots, the two gathers, the scaling, the sum into
  the target nodes) is the edge aggregation `agg`, which is carried here as ONE function of the transformed features and
  the edge list and never opened; the bias, the rectifier, the two dense layers and their `tanh` are `head`.
-/
import proofs.«138535_j85607288143885_2_alg».proof.Proof.RefRead
import proofs.«138535_j85607288143885_2_alg».proof.Proof.Spec
import Idealize.ShloMosaic.Lib.ValueIdx

noncomputable section

namespace Cert.ReferenceIdeal.RefValue

open Cert.ReferenceIdeal Cert.ReferenceIdeal.Gen Cert.ReferenceIdeal.ReadP Cert.GcnSpec Idealize.ShloMosaic Idealize.ShloMosaic.TcCoe Idealize.SL.Sem Idealize.ShloMosaic.ValueIdx

/-- THE EDGE AGGREGATION, as the reference's host operations compute it from the transformed node features `xw` and the
    edge list `e`: each edge (and each node's self loop) gathers its source's row of `xw`, scales it by the product of the
    two endpoints' inverse-square-root degrees, and the rows are summed into their target nodes. Stated over the stages
    that depend on the edge list alone; a function of `xw` that is never unfolded. -/
def agg (xw : FVec Ideal S100000x100 .f32) (e : IVec S2x1600000 32) : FVec Ideal S100000x100 .f32 :=
  Host.scatterAdd (F := Ideal) scatter_S100000x100_S1700000x1_S1700000x100_1_0_0_1 (val_main_v42 (F := Ideal)) (val_main_v43 (F := Ideal) e)
    (mulf (F := Ideal) (Host.gather gather_S100000x100_S1700000x1_S1700000x100_1_0_n_n_0_1_1100 xw (val_main_v37 (F := Ideal) e) : FVec Ideal S1700000x100 .f32)
      (val_main_v40 (F := Ideal) e))

/-- The reference's scatter-add stage is the aggregation of its `dot_general` stage. -/
theorem stage_agg (x0 : (⟨S100000x100, .f32⟩ : BufTy).Contents (Elt Ideal)) (x1 : (⟨S2x1600000, .i32⟩ : BufTy).Contents (Elt Ideal)) (x2 : (⟨S100x100, .f32⟩ : BufTy).Contents (Elt Ideal)) :
    val_main_v44 (F := Ideal) x0 x1 x2 = agg (val_main_v31 (F := Ideal) x0 x2) x1 := by
  unfold val_main_v44 val_main_v41 val_main_v38 agg
  rfl

/-- The reference's `dot_general` of the features with the transposed weight is `lin x W`. -/
theorem stage_lin (x0 : (⟨S100000x100, .f32⟩ : BufTy).Contents (Elt Ideal)) (x2 : (⟨S100x100, .f32⟩ : BufTy).Contents (Elt Ideal)) : val_main_v31 (F := Ideal) x0 x2 = lin x0 x2 := by
  funext i
  obtain ⟨r, j, rfl⟩ : ∃ (r : Fin 100000) (j : Fin 100), i = ix2 r j := ⟨i 0, i 1, eq_ix2 i⟩
  rw [val_main_v31_apply]
  unfold lin
  refine Finset.sum_congr rfl fun k _ => ?_
  rw [val_main_v30_apply]
  have e1 : lidx_main_v31 (ix2 r j) k = ix2 r k := funext fun a => Fin.ext (by match a with | ⟨0, _⟩ => rfl | ⟨1, _⟩ => rfl)
  have e2 : idx_main_v30 (ridx_main_v31 (ix2 r j) k) = ix2 j k := funext fun a => Fin.ext (by match a with | ⟨0, _⟩ => rfl | ⟨1, _⟩ => rfl)
  rw [e1, e2]

/-- The rectified, biased aggregate at node `r`, feature `l`: the maximum of the aggregate's entry plus the bias and zero. -/
theorem stage_relu (x0 : (⟨S100000x100, .f32⟩ : BufTy).Contents (Elt Ideal)) (x1 : (⟨S2x1600000, .i32⟩ : BufTy).Contents (Elt Ideal)) (x2 : (⟨S100x100, .f32⟩ : BufTy).Contents (Elt Ideal)) (x3 : (⟨S100, .f32⟩ : BufTy).Contents (Elt Ideal)) (r : Fin 100000) (l : Fin 100) :
    val_main_v48 (F := Ideal) x0 x1 x2 x3 (ix2 r l) = max (val_main_v44 (F := Ideal) x0 x1 x2 (ix2 r l) + x3 (ix1 l)) zeroWord := by
  rw [val_main_v48_apply, val_main_v47_apply, val_main_v46_apply, val_main_v45_apply, val_main_call1_v0_apply,
    val_main_call1_cst_apply]
  have e : idx_main_v45 (idx_main_v46 (ix2 r l)) = ix1 l := funext fun a => Fin.ext (by match a with | ⟨0, _⟩ => rfl)
  rw [e]
  generalize val_main_v44 (F := Ideal) x0 x1 x2 (ix2 r l) = a
  rw [Ideal.maximumf_def, Ideal.addf_def, Ideal.ofBits_def]

/-- The hidden layer at node `r`, unit `k`. -/
theorem stage_hidden (x0 : (⟨S100000x100, .f32⟩ : BufTy).Contents (Elt Ideal)) (x1 : (⟨S2x1600000, .i32⟩ : BufTy).Contents (Elt Ideal)) (x2 : (⟨S100x100, .f32⟩ : BufTy).Contents (Elt Ideal)) (x3 : (⟨S100, .f32⟩ : BufTy).Contents (Elt Ideal)) (x4 : (⟨S60x100, .f32⟩ : BufTy).Contents (Elt Ideal)) (x5 : (⟨S60, .f32⟩ : BufTy).Contents (Elt Ideal)) (r : Fin 100000) (k : Fin 60) :
    val_main_v54 (F := Ideal) x0 x1 x2 x3 x4 x5 (ix2 r k) = Cert.GcnSpec.hidden (val_main_v44 (F := Ideal) x0 x1 x2) x3 x4 x5 r k := by
  unfold Cert.GcnSpec.hidden
  rw [val_main_v54_apply, val_main_v53_apply, val_main_v50_apply, val_main_v52_apply, val_main_v51_apply]
  have e3 : idx_main_v51 (idx_main_v52 (ix2 r k)) = ix1 k := funext fun a => Fin.ext (by match a with | ⟨0, _⟩ => rfl)
  rw [e3, Ideal.hostUnary_tanh_def, Ideal.addf_def]
  refine congrArg (fun z => Ideal.tanh (z + x5 (ix1 k))) ?_
  refine Finset.sum_congr rfl fun l _ => ?_
  have e1 : lidx_main_v50 (ix2 r k) l = ix2 r l := funext fun a => Fin.ext (by match a with | ⟨0, _⟩ => rfl | ⟨1, _⟩ => rfl)
  have e2 : idx_main_v49 (ridx_main_v50 (ix2 r k) l) = ix2 k l := funext fun a => Fin.ext (by match a with | ⟨0, _⟩ => rfl | ⟨1, _⟩ => rfl)
  rw [e1, val_main_v49_apply, e2, stage_relu]

/-- The reference's last stage at node `r`, feature `j`. -/
theorem stage_out (x0 : (⟨S100000x100, .f32⟩ : BufTy).Contents (Elt Ideal)) (x1 : (⟨S2x1600000, .i32⟩ : BufTy).Contents (Elt Ideal)) (x2 : (⟨S100x100, .f32⟩ : BufTy).Contents (Elt Ideal)) (x3 : (⟨S100, .f32⟩ : BufTy).Contents (Elt Ideal)) (x4 : (⟨S60x100, .f32⟩ : BufTy).Contents (Elt Ideal)) (x5 : (⟨S60, .f32⟩ : BufTy).Contents (Elt Ideal)) (x6 : (⟨S100x60, .f32⟩ : BufTy).Contents (Elt Ideal)) (x7 : (⟨S100, .f32⟩ : BufTy).Contents (Elt Ideal)) (r : Fin 100000) (j : Fin 100) :
    val_main_v60 (F := Ideal) x0 x1 x2 x3 x4 x5 x6 x7 (ix2 r j)
      = Ideal.tanh ((∑ k : Fin 60, Cert.GcnSpec.hidden (val_main_v44 (F := Ideal) x0 x1 x2) x3 x4 x5 r k * x6 (ix2 j k)) + x7 (ix1 j)) := by
  rw [val_main_v60_apply, val_main_v59_apply, val_main_v56_apply, val_main_v58_apply, val_main_v57_apply]
  have e3 : idx_main_v57 (idx_main_v58 (ix2 r j)) = ix1 j := funext fun a => Fin.ext (by match a with | ⟨0, _⟩ => rfl)
  rw [e3, Ideal.hostUnary_tanh_def, Ideal.addf_def]
  refine congrArg (fun z => Ideal.tanh (z + x7 (ix1 j))) ?_
  refine Finset.sum_congr rfl fun k _ => ?_
  have e1 : lidx_main_v56 (ix2 r j) k = ix2 r k := funext fun a => Fin.ext (by match a with | ⟨0, _⟩ => rfl | ⟨1, _⟩ => rfl)
  have e2 : idx_main_v55 (ridx_main_v56 (ix2 r j) k) = ix2 j k := funext fun a => Fin.ext (by match a with | ⟨0, _⟩ => rfl | ⟨1, _⟩ => rfl)
  rw [e1, val_main_v55_apply, e2, stage_hidden]

/-- The head at `(r, j)`, for ANY aggregate `a`: the definition with the index's coordinates named. -/
theorem head_at (a : Mat 100000 100) (b0 : Vect 100) (w1 : Mat 60 100) (b1 : Vect 60) (w2 : Mat 100 60) (b2 : Vect 100)
    (r : Fin 100000) (j : Fin 100) :
    head a b0 w1 b1 w2 b2 (ix2 r j)
      = Ideal.tanh ((∑ k : Fin 60, Cert.GcnSpec.hidden a b0 w1 b1 r k * w2 (ix2 j k)) + b2 (ix1 j)) := rfl

/-- The reference's last stage is the head of its scatter-add stage. -/
theorem stage_head (x0 : (⟨S100000x100, .f32⟩ : BufTy).Contents (Elt Ideal)) (x1 : (⟨S2x1600000, .i32⟩ : BufTy).Contents (Elt Ideal)) (x2 : (⟨S100x100, .f32⟩ : BufTy).Contents (Elt Ideal)) (x3 : (⟨S100, .f32⟩ : BufTy).Contents (Elt Ideal)) (x4 : (⟨S60x100, .f32⟩ : BufTy).Contents (Elt Ideal)) (x5 : (⟨S60, .f32⟩ : BufTy).Contents (Elt Ideal)) (x6 : (⟨S100x60, .f32⟩ : BufTy).Contents (Elt Ideal)) (x7 : (⟨S100, .f32⟩ : BufTy).Contents (Elt Ideal)) :
    val_main_v60 (F := Ideal) x0 x1 x2 x3 x4 x5 x6 x7 = head (val_main_v44 (F := Ideal) x0 x1 x2) x3 x4 x5 x6 x7 := by
  funext i
  obtain ⟨r, j, rfl⟩ : ∃ (r : Fin 100000) (j : Fin 100), i = ix2 r j := ⟨i 0, i 1, eq_ix2 i⟩
  generalize hA : val_main_v44 (F := Ideal) x0 x1 x2 = A
  rw [head_at, ← hA]
  exact stage_out x0 x1 x2 x3 x4 x5 x6 x7 r j

/-- THE REFERENCE'S RESULT, the term its run names, is `head (agg (lin x W) e) b₀ W₁ b₁ W₂ b₂` of the launch contents. -/
theorem result_eq (m : (ℓ : Loc nD τ sig) → Buf (Elt Ideal) ℓ) (c : Dev nD) :
    Cert.ReferenceIdeal.ValueP.res_main_v60 m c
      = head (agg (lin (m ((c.tc : Thread nD τ).loc main_arg0)) (m ((c.tc : Thread nD τ).loc main_arg2))) (m ((c.tc : Thread nD τ).loc main_arg1)))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  refine (val_main_v60_eq (F := Ideal) m c).trans ?_
  rw [stage_head, stage_agg, stage_lin]

end Cert.ReferenceIdeal.RefValue

end
-- ==== Proof.KernelRun.lean ====
/-
  The idealized kernel's run with its RESULT named. The program is five segments: region 0, three stretches of host
  operations, region 1. Every weakly fair execution terminates without a fault; in the final state the result buffer holds
  what the last segment boundary's contents `W5` give it (region 1's output array after its write-backs), and the eight
  argument arrays hold what they held at launch: every unscoped buffer is read out of the final thread state, the result's
  among them.
-/
import proofs.«138535_j85607288143885_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the arguments end as launched. -/
theorem run_result : θ_run defs (onTc (τ := τ) (main (F := F))) ⟨m, fun _ => 0, ρ⟩ (fun r => ∀ c : Dev nD,
      r.2.mem ((c.tc : Thread nD τ).loc main_v47) = W5 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v47 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.RunValue

end
-- ==== Proof.PayLin.lean ====
/-
  The first kernel's body at an index. Its one store writes the block product of the node-feature block (rounded to
  bf16, the identity on the extended reals) with the TRANSPOSE of the weight (likewise rounded), into a zero
  accumulator: at row `p` of the block and column `q` this is `∑ₖ x[p,k] · W[q,k]`.
-/
import proofs.«138535_j85607288143885_2_alg».proof.Proof.Gen.KernelIdeal.Skeleton
import proofs.«138535_j85607288143885_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayLin

open Cert.KernelIdeal Cert.KernelIdeal.Gen Idealize.ShloMosaic Idealize.ShloMosaic.ValueIdx

/-- The block product `dot_S10000x100_S100x100_S10000x100_1_0_0_1_n_n` into a zero accumulator, read at `(p, q)`: the plain sum over the contracted
    coordinate `k < 100` of the left operand at `(p, k)` times the right operand at `(k, q)`. -/
theorem mm_lin (lhs : FVec Ideal S10000x100 .bf16) (rhs : FVec Ideal S100x100 .bf16) (p : Fin 10000) (q : Fin 100) :
    matmul dot_S10000x100_S100x100_S10000x100_1_0_0_1_n_n none lhs rhs (constant (F := Ideal) S10000x100 .f32 0x00000000#32) (ix2 p q)
      = ∑ k : Fin 100, lhs (ix2 p k) * rhs (ix2 k q) := by
  simp only [matmul]
  rw [Ideal.matmul_constant_zero_apply, ← Equiv.sum_comp (contrEquiv1 dot_S10000x100_S100x100_S10000x100_1_0_0_1_n_n 100 rfl rfl).symm]
  refine Finset.sum_congr rfl fun k _ => ?_
  have hk := contrEquiv1_symm_val dot_S10000x100_S100x100_S10000x100_1_0_0_1_n_n 100 rfl rfl k
  have el : dot_S10000x100_S100x100_S10000x100_1_0_0_1_n_n.lhsIdx (ix2 p q) ((contrEquiv1 dot_S10000x100_S100x100_S10000x100_1_0_0_1_n_n 100 rfl rfl).symm k) = ix2 p k := funext fun a => Fin.ext (by
    match a with
    | ⟨0, _⟩ =>
      show (dot_S10000x100_S100x100_S10000x100_1_0_0_1_n_n.lhsIdx (ix2 p q) _ 0).val = p.val
      unfold DotDims.lhsIdx
      rw [dif_neg (show ¬(0 : Fin S10000x100.rank) ∈ dot_S10000x100_S100x100_S10000x100_1_0_0_1_n_n.lhsBatch by decide), dif_pos (show (0 : Fin S10000x100.rank) ∈ dot_S10000x100_S100x100_S10000x100_1_0_0_1_n_n.lhsNonContracting by decide)]
      rfl
    | ⟨1, _⟩ => exact (dot_S10000x100_S100x100_S10000x100_1_0_0_1_n_n.lhsIdx_val_of_single rfl _ _).trans hk)
  have er : dot_S10000x100_S100x100_S10000x100_1_0_0_1_n_n.rhsIdx (ix2 p q) ((contrEquiv1 dot_S10000x100_S100x100_S10000x100_1_0_0_1_n_n 100 rfl rfl).symm k) = ix2 k q := funext fun a => Fin.ext (by
    match a with
    | ⟨0, _⟩ => exact (dot_S10000x100_S100x100_S10000x100_1_0_0_1_n_n.rhsIdx_val_of_single rfl _ _).trans hk
    | ⟨1, _⟩ =>
      show (dot_S10000x100_S100x100_S10000x100_1_0_0_1_n_n.rhsIdx (ix2 p q) _ 1).val = q.val
      unfold DotDims.rhsIdx
      rw [dif_neg (show ¬(1 : Fin S100x100.rank) ∈ dot_S10000x100_S100x100_S10000x100_1_0_0_1_n_n.rhsBatch by decide), dif_pos (show (1 : Fin S100x100.rank) ∈ dot_S10000x100_S100x100_S10000x100_1_0_0_1_n_n.rhsNonContracting by decide)]
      rfl)
  rw [el, er]

/-- The first kernel's stored value at `(p, q)` of its block: `∑ₖ x[p,k] · W[q,k]` over the loaded blocks. -/
theorem pay_lin_apply (x0 : Vec Ideal S10000x100 .f32) (x1 : Vec Ideal S100x100 .f32) (p : Fin 10000) (q : Fin 100) :
    k0_pay1 x0 x1 (ix2 p q) = ∑ k : Fin 100, x0 (ix2 p k) * x1 (ix2 q k) := by
  unfold k0_pay1
  refine (mm_lin _ _ p q).trans ?_
  refine Finset.sum_congr rfl fun k _ => ?_
  refine congrArg (fun z => x0 (ix2 p k) * z) ?_
  exact transpose_ix2_apply _ _ k q

end Cert.KernelIdeal.PayLin

end
-- ==== Proof.LinValue.lean ====
/-
  Region 0 (the linear transform), from blocks to the array. The grid has ten points; point `t` reads rows
  `[10000·t, 10000·t + 10000)` of the node features and the whole weight, and writes back the same rows of the result. What it
  writes back is those rows of `lin x W` (every entry of a row of `x · Wᵀ` depends on that row of `x` alone), and the ten
  row blocks cover the array: after the region the result array is `lin x W`, whatever the region found in it.
-/
import proofs.«138535_j85607288143885_2_alg».proof.Proof.Gen.KernelIdeal.Frame
import proofs.«138535_j85607288143885_2_alg».proof.Proof.PayLin
import Idealize.ShloMosaic.Lib.Pipeline.Value

noncomputable section

namespace Cert.KernelIdeal.LinValue

open Cert.KernelIdeal Cert.KernelIdeal.Gen Cert.KernelIdeal.PayLin Cert.GcnSpec Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the ten points: the feature window and the result window sit at row block `t`, the weight
    window at the origin. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The array index of element `y` of the result's block at point `t`. -/
abbrev outIdx (t : Fin cfg0.N) (y : S10000x100.Idx) : S100000x100.Idx := ((cfg0.win 2).blk t).view.emb y

/-- WHAT POINT `t` WRITES BACK is block `t` of `lin x W`, `x` and `W` the arrays as the region finds them. -/
theorem flushed_lin (c : Dev nD) (t : Fin cfg0.N) :
    (dat0 V c).flushed 2 t = ((cfg0.win 2).blk t).view.read (Elt Ideal) (lin (V c main_arg0) (V c main_arg2)) := by
  show (cfg0.win 2).cut (grid0.coords t) ((dat0 V c).after 2 t) = _
  rw [after0_2]
  unfold out0_2
  rw [View.canon_unit_zero zero_off]
  simp only [View.ld_unit_zero (S := S10000x100) zero_off, View.ld_unit_zero (S := S100x100) zero_off]
  obtain ⟨e0, e1, e2, e3, e4, e5⟩ := index_maps t
  funext j
  obtain ⟨p, q, rfl⟩ : ∃ (p : Fin 10000) (q : Fin 100), j = ix2 p q := ⟨j 0, j 1, eq_ix2 j⟩
  show k0_pay1 (iblk0 V c 0 t) (iblk0 V c 1 t) (ix2 p q) = lin (V c main_arg0) (V c main_arg2) (outIdx t (ix2 p q))
  refine (pay_lin_apply _ _ p q).trans ?_
  unfold lin
  refine Finset.sum_congr rfl fun k _ => ?_
  -- row p of the feature block is row 10000·t + p of the array; the weight block is the whole weight
  have h0 : ((cfg0.win 0).blk t).view.emb (ix2 p k) = ix2 (outIdx t (ix2 p q) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 100 + 1 * k.val = k.val; omega
  have h1 : ((cfg0.win 1).blk t).view.emb (ix2 q k) = ix2 (outIdx t (ix2 p q) 1) k := by
    funext a; apply Fin.ext
    match a with
    | ⟨0, _⟩ => show win0_1.index t (0 : Fin 2) * 100 + 1 * q.val = win0_2.index t (1 : Fin 2) * 100 + 1 * q.val; omega
    | ⟨1, _⟩ => show win0_1.index t (1 : Fin 2) * 100 + 1 * k.val = k.val; omega
  have hx : iblk0 V c 0 t (ix2 p k) = V c main_arg0 (ix2 (outIdx t (ix2 p q) 0) k) := congrArg (V c main_arg0) h0
  have hw : iblk0 V c 1 t (ix2 q k) = V c main_arg2 (ix2 (outIdx t (ix2 p q) 1) k) := congrArg (V c main_arg2) h1
  rw [hx, hw]

/-- An index of the array is in point `t`'s block iff each coordinate is in the block's range on its axis. -/
theorem mem_block (t : Fin cfg0.N) (i : S100000x100.Idx) :
    i ∈ ((cfg0.win 2).blk t).view.set ↔ ∀ a : Fin 2, win0_2.index t a * S10000x100.size a ≤ (i a).val ∧ (i a).val < win0_2.index t a * S10000x100.size a + S10000x100.size a := by
  show i ∈ ((View.whole main_v0).slice (win0_2.rect t)).set ↔ _
  rw [View.set_slice_whole, Rect.mem_set_unit]
  exact Iff.rfl

/-- Every row of the array is in some point's block: row `r` in block `r / 10000`. -/
theorem cover (i : S100000x100.Idx) : ∃ t : Fin cfg0.N, (cfg0.win 2).flush t = true ∧ i ∈ ((cfg0.win 2).blk t).view.set := by
  have hi0 : (i 0).val < 100000 := (i 0).isLt
  have hi1 : (i 1).val < 100 := (i 1).isLt
  have hN : grid0.N = 10 := N_0
  have ht : (i 0).val / 10000 < cfg0.N := by show _ < grid0.N; omega
  obtain ⟨-, -, -, -, e4, e5⟩ := index_maps ⟨(i 0).val / 10000, ht⟩
  refine ⟨⟨(i 0).val / 10000, ht⟩, flush0_2 _, ?_⟩
  rw [mem_block]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 100 ≤ (i 1).val ∧ (i 1).val < win0_2.index ⟨(i 0).val / 10000, ht⟩ (1 : Fin 2) * 100 + 100
    rw [e5]; omega

/-- THE RESULT ARRAY after region 0 is `lin x W`. -/
theorem final_lin (c : Dev nD) : (dat0 V c).arrAt 2 cfg0.N = lin (V c main_arg0) (V c main_arg2) :=
  (dat0 V c).arrAt_eq_of_cover 2 _ (fun t _ => flushed_lin V c t) cover

end Cert.KernelIdeal.LinValue

end
-- ==== Proof.PayHead.lean ====
/-
  The second kernel's body at an index. Its one store writes, at row `p` of the block and feature `q`,

      tanh (∑ₖ hₖ · W₂[q,k] + b₂[q]),   hₖ = tanh (∑ₗ max (a[p,l] + b₀[l]) 0 · W₁[k,l] + b₁[k]),

  `a` the aggregated block, the biases loaded as one-row arrays and broadcast down the rows, each weight rounded to
  bf16 (the identity on the extended reals) and transposed, each product taken into a zero accumulator.
-/
import proofs.«138535_j85607288143885_2_alg».proof.Proof.Gen.KernelIdeal.Skeleton
import proofs.«138535_j85607288143885_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayHead

open Cert.KernelIdeal Cert.KernelIdeal.Gen Cert.GcnSpec Idealize.ShloMosaic Idealize.ShloMosaic.ValueIdx

/-- The block product `dot_S10000x100_S100x60_S10000x60_1_0_0_1_n_n` into a zero accumulator, read at `(p, q)`: the plain sum over the contracted
    coordinate `k < 100` of the left operand at `(p, k)` times the right operand at `(k, q)`. -/
theorem mm_hid (lhs : FVec Ideal S10000x100 .bf16) (rhs : FVec Ideal S100x60 .bf16) (p : Fin 10000) (q : Fin 60) :
    matmul dot_S10000x100_S100x60_S10000x60_1_0_0_1_n_n none lhs rhs (constant (F := Ideal) S10000x60 .f32 0x00000000#32) (ix2 p q)
      = ∑ k : Fin 100, lhs (ix2 p k) * rhs (ix2 k q) := by
  simp only [matmul]
  rw [Ideal.matmul_constant_zero_apply, ← Equiv.sum_comp (contrEquiv1 dot_S10000x100_S100x60_S10000x60_1_0_0_1_n_n 100 rfl rfl).symm]
  refine Finset.sum_congr rfl fun k _ => ?_
  have hk := contrEquiv1_symm_val dot_S10000x100_S100x60_S10000x60_1_0_0_1_n_n 100 rfl rfl k
  have el : dot_S10000x100_S100x60_S10000x60_1_0_0_1_n_n.lhsIdx (ix2 p q) ((contrEquiv1 dot_S10000x100_S100x60_S10000x60_1_0_0_1_n_n 100 rfl rfl).symm k) = ix2 p k := funext fun a => Fin.ext (by
    match a with
    | ⟨0, _⟩ =>
      show (dot_S10000x100_S100x60_S10000x60_1_0_0_1_n_n.lhsIdx (ix2 p q) _ 0).val = p.val
      unfold DotDims.lhsIdx
      rw [dif_neg (show ¬(0 : Fin S10000x100.rank) ∈ dot_S10000x100_S100x60_S10000x60_1_0_0_1_n_n.lhsBatch by decide), dif_pos (show (0 : Fin S10000x100.rank) ∈ dot_S10000x100_S100x60_S10000x60_1_0_0_1_n_n.lhsNonContracting by decide)]
      rfl
    | ⟨1, _⟩ => exact (dot_S10000x100_S100x60_S10000x60_1_0_0_1_n_n.lhsIdx_val_of_single rfl _ _).trans hk)
  have er : dot_S10000x100_S100x60_S10000x60_1_0_0_1_n_n.rhsIdx (ix2 p q) ((contrEquiv1 dot_S10000x100_S100x60_S10000x60_1_0_0_1_n_n 100 rfl rfl).symm k) = ix2 k q := funext fun a => Fin.ext (by
    match a with
    | ⟨0, _⟩ => exact (dot_S10000x100_S100x60_S10000x60_1_0_0_1_n_n.rhsIdx_val_of_single rfl _ _).trans hk
    | ⟨1, _⟩ =>
      show (dot_S10000x100_S100x60_S10000x60_1_0_0_1_n_n.rhsIdx (ix2 p q) _ 1).val = q.val
      unfold DotDims.rhsIdx
      rw [dif_neg (show ¬(1 : Fin S100x60.rank) ∈ dot_S10000x100_S100x60_S10000x60_1_0_0_1_n_n.rhsBatch by decide), dif_pos (show (1 : Fin S100x60.rank) ∈ dot_S10000x100_S100x60_S10000x60_1_0_0_1_n_n.rhsNonContracting by decide)]
      rfl)
  rw [el, er]

/-- The block product `dot_S10000x60_S60x100_S10000x100_1_0_0_1_n_n` into a zero accumulator, read at `(p, q)`: the plain sum over the contracted
    coordinate `k < 60` of the left operand at `(p, k)` times the right operand at `(k, q)`. -/
theorem mm_out (lhs : FVec Ideal S10000x60 .bf16) (rhs : FVec Ideal S60x100 .bf16) (p : Fin 10000) (q : Fin 100) :
    matmul dot_S10000x60_S60x100_S10000x100_1_0_0_1_n_n none lhs rhs (constant (F := Ideal) S10000x100 .f32 0x00000000#32) (ix2 p q)
      = ∑ k : Fin 60, lhs (ix2 p k) * rhs (ix2 k q) := by
  simp only [matmul]
  rw [Ideal.matmul_constant_zero_apply, ← Equiv.sum_comp (contrEquiv1 dot_S10000x60_S60x100_S10000x100_1_0_0_1_n_n 60 rfl rfl).symm]
  refine Finset.sum_congr rfl fun k _ => ?_
  have hk := contrEquiv1_symm_val dot_S10000x60_S60x100_S10000x100_1_0_0_1_n_n 60 rfl rfl k
  have el : dot_S10000x60_S60x100_S10000x100_1_0_0_1_n_n.lhsIdx (ix2 p q) ((contrEquiv1 dot_S10000x60_S60x100_S10000x100_1_0_0_1_n_n 60 rfl rfl).symm k) = ix2 p k := funext fun a => Fin.ext (by
    match a with
    | ⟨0, _⟩ =>
      show (dot_S10000x60_S60x100_S10000x100_1_0_0_1_n_n.lhsIdx (ix2 p q) _ 0).val = p.val
      unfold DotDims.lhsIdx
      rw [dif_neg (show ¬(0 : Fin S10000x60.rank) ∈ dot_S10000x60_S60x100_S10000x100_1_0_0_1_n_n.lhsBatch by decide), dif_pos (show (0 : Fin S10000x60.rank) ∈ dot_S10000x60_S60x100_S10000x100_1_0_0_1_n_n.lhsNonContracting by decide)]
      rfl
    | ⟨1, _⟩ => exact (dot_S10000x60_S60x100_S10000x100_1_0_0_1_n_n.lhsIdx_val_of_single rfl _ _).trans hk)
  have er : dot_S10000x60_S60x100_S10000x100_1_0_0_1_n_n.rhsIdx (ix2 p q) ((contrEquiv1 dot_S10000x60_S60x100_S10000x100_1_0_0_1_n_n 60 rfl rfl).symm k) = ix2 k q := funext fun a => Fin.ext (by
    match a with
    | ⟨0, _⟩ => exact (dot_S10000x60_S60x100_S10000x100_1_0_0_1_n_n.rhsIdx_val_of_single rfl _ _).trans hk
    | ⟨1, _⟩ =>
      show (dot_S10000x60_S60x100_S10000x100_1_0_0_1_n_n.rhsIdx (ix2 p q) _ 1).val = q.val
      unfold DotDims.rhsIdx
      rw [dif_neg (show ¬(1 : Fin S60x100.rank) ∈ dot_S10000x60_S60x100_S10000x100_1_0_0_1_n_n.rhsBatch by decide), dif_pos (show (1 : Fin S60x100.rank) ∈ dot_S10000x60_S60x100_S10000x100_1_0_0_1_n_n.rhsNonContracting by decide)]
      rfl)
  rw [el, er]

/-- The second kernel's stored value at `(p, q)` of its block, from the loaded blocks: the aggregate's block `v0`, the
    bias rows `v2`, `v13`, `v23` (one row each) and the weights `v9`, `v19`. -/
theorem pay_head_apply (v0 : Vec Ideal S10000x100 .f32) (v2 : Vec Ideal S1x100 .f32) (v9 : Vec Ideal S60x100 .f32)
    (v13 : Vec Ideal S1x60 .f32) (v19 : Vec Ideal S100x60 .f32) (v23 : Vec Ideal S1x100 .f32) (p : Fin 10000) (q : Fin 100) :
    k1_pay1 v0 v2 v9 v13 v19 v23 (ix2 p q)
      = Ideal.tanh ((∑ k : Fin 60,
            Ideal.tanh ((∑ l : Fin 100, max (v0 (ix2 p l) + v2 (ix2 (0 : Fin 1) l)) zeroWord * v9 (ix2 k l)) + v13 (ix2 (0 : Fin 1) k))
              * v19 (ix2 q k)) + v23 (ix2 (0 : Fin 1) q)) := by
  unfold k1_pay1
  -- the four shape casts of the body are casts of a shape to itself
  simp only [shapeCast_self]
  -- the output layer: tanh of (block product + the bias row broadcast down the rows)
  show Ideal.tanh (matmul dot_S10000x60_S60x100_S10000x100_1_0_0_1_n_n none _ _ (constant (F := Ideal) S10000x100 .f32 0x00000000#32) (ix2 p q)
      + broadcastTo S10000x100 v23 broadcasts_S1x100_S10000x100 (ix2 p q)) = _
  rw [mm_out, broadcastTo_1b_ab_apply]
  refine congrArg (fun z => Ideal.tanh (z + v23 (ix2 (0 : Fin 1) q))) ?_
  refine Finset.sum_congr rfl fun k _ => ?_
  rw [transpose_ix2_apply]
  -- the hidden layer at unit k
  show Ideal.tanh (matmul dot_S10000x100_S100x60_S10000x60_1_0_0_1_n_n none _ _ (constant (F := Ideal) S10000x60 .f32 0x00000000#32) (ix2 p k)
      + broadcastTo S10000x60 v13 broadcasts_S1x60_S10000x60 (ix2 p k)) * v19 (ix2 q k) = _
  rw [mm_hid, broadcastTo_1b_ab_apply]
  refine congrArg (fun z => Ideal.tanh (z + v13 (ix2 (0 : Fin 1) k)) * v19 (ix2 q k)) ?_
  refine Finset.sum_congr rfl fun l _ => ?_
  rw [transpose_ix2_apply]
  -- the rectified, biased aggregate at (p, l)
  show max (v0 (ix2 p l) + broadcastTo S10000x100 v2 broadcasts_S1x100_S10000x100 (ix2 p l)) _ * v9 (ix2 k l) = _
  rw [broadcastTo_1b_ab_apply]
  rfl

end Cert.KernelIdeal.PayHead

end
-- ==== Proof.HeadValue.lean ====
/-
  Region 1 (the head), from blocks to the array. Point `t` of its ten reads rows `[10000·t, 10000·t + 10000)` of the
  aggregate, the three bias rows and the two weights whole, and writes back the same rows of the result: those rows of
  `head a b₀ W₁ b₁ W₂ b₂` (a row of the head's output depends on that row of the aggregate alone). The ten row blocks cover
  the array, so after the region the result array is `head …` of the arrays the region found. The biases reach the region
  as one-row arrays; `hb0`, `hb1`, `hb2` say which vectors those rows are.
-/
import proofs.«138535_j85607288143885_2_alg».proof.Proof.Gen.KernelIdeal.Frame
import proofs.«138535_j85607288143885_2_alg».proof.Proof.PayHead
import Idealize.ShloMosaic.Lib.Pipeline.Value

noncomputable section

namespace Cert.KernelIdeal.HeadValue

open Cert.KernelIdeal Cert.KernelIdeal.Gen Cert.KernelIdeal.PayHead Cert.GcnSpec Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the ten points: the aggregate's window and the result's sit at row block `t`, the five
    other windows at the origin. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The array index of element `y` of the result's block at point `t`. -/
abbrev outIdx (t : Fin cfg1.N) (y : S10000x100.Idx) : S100000x100.Idx := ((cfg1.win 6).blk t).view.emb y

/-- WHAT POINT `t` WRITES BACK is block `t` of `head` of the arrays as the region finds them. -/
theorem flushed_head (c : Dev nD) (t : Fin cfg1.N) (b0 : Vect 100) (b1 : Vect 60) (b2 : Vect 100)
    (hb0 : ∀ l : Fin 100, V c main_v44 (ix2 (0 : Fin 1) l) = b0 (ix1 l))
    (hb1 : ∀ k : Fin 60, V c main_v45 (ix2 (0 : Fin 1) k) = b1 (ix1 k))
    (hb2 : ∀ q : Fin 100, V c main_v46 (ix2 (0 : Fin 1) q) = b2 (ix1 q)) :
    (dat1 V c).flushed 6 t = ((cfg1.win 6).blk t).view.read (Elt Ideal)
      (head (V c main_v43) b0 (V c main_arg4) b1 (V c main_arg6) b2) := by
  show (cfg1.win 6).cut (grid1.coords t) ((dat1 V c).after 6 t) = _
  rw [after1_6]
  unfold out1_6
  rw [View.canon_unit_zero zero_off]
  simp only [View.ld_unit_zero (S := S10000x100) zero_off, View.ld_unit_zero (S := S1x100) zero_off,
    View.ld_unit_zero (S := S60x100) zero_off, View.ld_unit_zero (S := S1x60) zero_off, View.ld_unit_zero (S := S100x60) zero_off]
  obtain ⟨e00, e01, e10, e11, e20, e21, e30, e31, e40, e41, e50, e51, e60, e61⟩ := index_maps t
  funext j
  obtain ⟨p, q, rfl⟩ : ∃ (p : Fin 10000) (q : Fin 100), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q)
      = head (V c main_v43) b0 (V c main_arg4) b1 (V c main_arg6) b2 (outIdx t (ix2 p q))
  refine (pay_head_apply _ _ _ _ _ _ p q).trans ?_
  unfold head Cert.GcnSpec.hidden
  -- the blocks read through their windows: row p of the aggregate's block is row 10000·t + p of the array, the other
  -- five blocks are their whole arrays, and column q of the block is column q of the array
  have r0 : ∀ l : Fin 100, iblk1 V c 0 t (ix2 p l) = V c main_v43 (ix2 (outIdx t (ix2 p q) 0) l) := fun l => by
    show V c main_v43 (((cfg1.win 0).blk t).view.emb (ix2 p l)) = _
    refine congrArg (V c main_v43) (funext fun a => Fin.ext ?_)
    match a with
    | ⟨0, _⟩ => show win1_0.index t (0 : Fin 2) * 10000 + 1 * p.val = win1_6.index t (0 : Fin 2) * 10000 + 1 * p.val; omega
    | ⟨1, _⟩ => show win1_0.index t (1 : Fin 2) * 100 + 1 * l.val = l.val; omega
  have r1 : ∀ l : Fin 100, iblk1 V c 1 t (ix2 (0 : Fin 1) l) = b0 (ix1 l) := fun l => Eq.trans (by
    show V c main_v44 (((cfg1.win 1).blk t).view.emb (ix2 (0 : Fin 1) l)) = V c main_v44 (ix2 (0 : Fin 1) l)
    refine congrArg (V c main_v44) (funext fun a => Fin.ext ?_)
    match a with
    | ⟨0, _⟩ => show win1_1.index t (0 : Fin 2) * 1 + 1 * 0 = 0; omega
    | ⟨1, _⟩ => show win1_1.index t (1 : Fin 2) * 100 + 1 * l.val = l.val; omega) (hb0 l)
  have r2 : ∀ (k : Fin 60) (l : Fin 100), iblk1 V c 2 t (ix2 k l) = V c main_arg4 (ix2 k l) := fun k l => by
    show V c main_arg4 (((cfg1.win 2).blk t).view.emb (ix2 k l)) = V c main_arg4 (ix2 k l)
    refine congrArg (V c main_arg4) (funext fun a => Fin.ext ?_)
    match a with
    | ⟨0, _⟩ => show win1_2.index t (0 : Fin 2) * 60 + 1 * k.val = k.val; omega
    | ⟨1, _⟩ => show win1_2.index t (1 : Fin 2) * 100 + 1 * l.val = l.val; omega
  have r3 : ∀ k : Fin 60, iblk1 V c 3 t (ix2 (0 : Fin 1) k) = b1 (ix1 k) := fun k => Eq.trans (by
    show V c main_v45 (((cfg1.win 3).blk t).view.emb (ix2 (0 : Fin 1) k)) = V c main_v45 (ix2 (0 : Fin 1) k)
    refine congrArg (V c main_v45) (funext fun a => Fin.ext ?_)
    match a with
    | ⟨0, _⟩ => show win1_3.index t (0 : Fin 2) * 1 + 1 * 0 = 0; omega
    | ⟨1, _⟩ => show win1_3.index t (1 : Fin 2) * 60 + 1 * k.val = k.val; omega) (hb1 k)
  have hq : outIdx t (ix2 p q) 1 = q := Fin.ext (by
    show win1_6.index t (1 : Fin 2) * 100 + 1 * q.val = q.val; omega)
  have r4 : ∀ k : Fin 60, iblk1 V c 4 t (ix2 q k) = V c main_arg6 (ix2 (outIdx t (ix2 p q) 1) k) := fun k => by
    rw [hq]
    show V c main_arg6 (((cfg1.win 4).blk t).view.emb (ix2 q k)) = V c main_arg6 (ix2 q k)
    refine congrArg (V c main_arg6) (funext fun a => Fin.ext ?_)
    match a with
    | ⟨0, _⟩ => show win1_4.index t (0 : Fin 2) * 100 + 1 * q.val = q.val; omega
    | ⟨1, _⟩ => show win1_4.index t (1 : Fin 2) * 60 + 1 * k.val = k.val; omega
  have r5 : iblk1 V c 5 t (ix2 (0 : Fin 1) q) = b2 (ix1 (outIdx t (ix2 p q) 1)) := by
    rw [hq]
    refine Eq.trans ?_ (hb2 q)
    show V c main_v46 (((cfg1.win 5).blk t).view.emb (ix2 (0 : Fin 1) q)) = V c main_v46 (ix2 (0 : Fin 1) q)
    refine congrArg (V c main_v46) (funext fun a => Fin.ext ?_)
    match a with
    | ⟨0, _⟩ => show win1_5.index t (0 : Fin 2) * 1 + 1 * 0 = 0; omega
    | ⟨1, _⟩ => show win1_5.index t (1 : Fin 2) * 100 + 1 * q.val = q.val; omega
  simp only [r0, r1, r2, r3, r4, r5]

/-- An index of the array is in point `t`'s block iff each coordinate is in the block's range on its axis. -/
theorem mem_block (t : Fin cfg1.N) (i : S100000x100.Idx) :
    i ∈ ((cfg1.win 6).blk t).view.set ↔ ∀ a : Fin 2, win1_6.index t a * S10000x100.size a ≤ (i a).val ∧ (i a).val < win1_6.index t a * S10000x100.size a + S10000x100.size a := by
  show i ∈ ((View.whole main_v47).slice (win1_6.rect t)).set ↔ _
  rw [View.set_slice_whole, Rect.mem_set_unit]
  exact Iff.rfl

/-- Every row of the array is in some point's block: row `r` in block `r / 10000`. -/
theorem cover (i : S100000x100.Idx) : ∃ t : Fin cfg1.N, (cfg1.win 6).flush t = true ∧ i ∈ ((cfg1.win 6).blk t).view.set := by
  have hi0 : (i 0).val < 100000 := (i 0).isLt
  have hi1 : (i 1).val < 100 := (i 1).isLt
  have hN : grid1.N = 10 := N_1
  have ht : (i 0).val / 10000 < cfg1.N := by show _ < grid1.N; omega
  obtain ⟨-, -, -, -, -, -, -, -, -, -, -, -, e60, e61⟩ := index_maps ⟨(i 0).val / 10000, ht⟩
  refine ⟨⟨(i 0).val / 10000, ht⟩, flush1_6 _, ?_⟩
  rw [mem_block]
  intro a
  match a with
  | ⟨0, _⟩ =>
    show win1_6.index ⟨(i 0).val / 10000, ht⟩ (0 : Fin 2) * 10000 ≤ (i 0).val ∧ (i 0).val < win1_6.index ⟨(i 0).val / 10000, ht⟩ (0 : Fin 2) * 10000 + 10000
    rw [e60]; show (i 0).val / 10000 * 10000 ≤ (i 0).val ∧ (i 0).val < (i 0).val / 10000 * 10000 + 10000; omega
  | ⟨1, _⟩ =>
    show win1_6.index ⟨(i 0).val / 10000, ht⟩ (1 : Fin 2) * 100 ≤ (i 1).val ∧ (i 1).val < win1_6.index ⟨(i 0).val / 10000, ht⟩ (1 : Fin 2) * 100 + 100
    rw [e61]; omega

/-- THE RESULT ARRAY after region 1 is `head` of the arrays the region found. -/
theorem final_head (c : Dev nD) (b0 : Vect 100) (b1 : Vect 60) (b2 : Vect 100)
    (hb0 : ∀ l : Fin 100, V c main_v44 (ix2 (0 : Fin 1) l) = b0 (ix1 l))
    (hb1 : ∀ k : Fin 60, V c main_v45 (ix2 (0 : Fin 1) k) = b1 (ix1 k))
    (hb2 : ∀ q : Fin 100, V c main_v46 (ix2 (0 : Fin 1) q) = b2 (ix1 q)) :
    (dat1 V c).arrAt 6 cfg1.N = head (V c main_v43) b0 (V c main_arg4) b1 (V c main_arg6) b2 :=
  (dat1 V c).arrAt_eq_of_cover 6 _ (fun t _ => flushed_head V c t b0 b1 b2 hb0 hb1 hb2) cover

end Cert.KernelIdeal.HeadValue

end
-- ==== Proof.HostValue.lean ====
/-
  The host operations between the two kernels, read as values. From any buffer contents `X` (what region 0 leaves), after
  the three stretches of host operations that follow:

    • the buffer region 1 reads as its aggregate holds `agg xw e`, `xw` region 0's result array and `e` the edge list: the
      kernel program applies to `xw` the SAME chain of host operations (degrees by scatter-add of ones, their inverse square
      roots where positive, the two gathers, the product, the row gather of `xw`, the scaling, the scatter-add into the target
      nodes) that the reference applies to its own `dot_general`, so the two terms are one function, compared operation by
      operation and never evaluated;
    • the three bias rows are the bias vectors recast to one-row arrays: row 0 at column `l` is the vector at `l`;
    • the two dense weights are as `X` has them (no host operation writes an argument).
-/
import proofs.«138535_j85607288143885_2_alg».proof.Proof.Gen.KernelIdeal.Launch
import proofs.«138535_j85607288143885_2_alg».proof.Proof.RefValue
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx

variable (X : Valuation τ sig (Elt Ideal))

/-- The outlined `where` on typed references is the plain `select` against the broadcast scalar: a transport between a
    buffer's type and its value's type is the identity. -/
theorem where_plain (c : main_v13.ty.Contents (Elt Ideal)) (r : main_v14.ty.Contents (Elt Ideal)) (k : main_cst_2.ty.Contents (Elt Ideal)) :
    (TRef.of (sig := sig) (T := ⟨S100000, .f32⟩) main_v15).toBuf
        (select ((TRef.of (sig := sig) (T := ⟨S100000, .i1⟩) main_v13).ofBuf c) ((TRef.of (sig := sig) (T := ⟨S100000, .f32⟩) main_v14).ofBuf r)
          ((TRef.of (sig := sig) (T := ⟨S100000, .f32⟩) main_call0_v1).ofBuf
            ((TRef.of (sig := sig) (T := ⟨S100000, .f32⟩) main_call0_v1).toBuf
              (broadcastInDim S100000 ![] bcast_S_S100000
                ((TRef.of (sig := sig) (T := ⟨S_, .f32⟩) main_call0_v0).ofBuf
                  ((TRef.of (sig := sig) (T := ⟨S_, .f32⟩) main_call0_v0).toBuf (id ((TRef.of (sig := sig) (T := ⟨S_, .f32⟩) main_cst_2).ofBuf k))))))))
      = (select c r (broadcastInDim S100000 ![] bcast_S_S100000 k) : FVec Ideal S100000 .f32) := rfl

/-- A host reshape's result, spelt entry by entry with the element type transported, is the plain shape cast. -/
theorem reshape_plain_src (x : main_v2.ty.Contents (Elt Ideal)) (he : main_v2.ty.elt = main_v3.ty.elt) :
    (fun i => he ▸ shapeCast main_v3.ty.shape x shapeCasts_S1x1600000_S1600000 i : main_v3.ty.Contents (Elt Ideal))
      = (shapeCast S1600000 x shapeCasts_S1x1600000_S1600000 : IVec S1600000 32) := rfl
theorem reshape_plain_dst (x : main_v5.ty.Contents (Elt Ideal)) (he : main_v5.ty.elt = main_v6.ty.elt) :
    (fun i => he ▸ shapeCast main_v6.ty.shape x shapeCasts_S1x1600000_S1600000 i : main_v6.ty.Contents (Elt Ideal))
      = (shapeCast S1600000 x shapeCasts_S1x1600000_S1600000 : IVec S1600000 32) := rfl

set_option maxRecDepth 8192 in
set_option maxHeartbeats 8000000 in
/-- After the host stretches the aggregate's buffer holds the edge aggregation of region 0's result array: the kernel
    program's chain of host operations on that array and the edge list is, operation for operation, the reference's chain
    on its own `dot_general`. The two spellings differ only by transports along an equality of a type with itself (a
    buffer's type against its value's type around the outlined `where`, the element type under each reshape), and those
    are identities. -/
theorem agg_after :
    StableHlo.after hostOps1_2 (StableHlo.after hostOps1_1 (StableHlo.after hostOps1 X)) (Proc.devRef .tc main_v43)
      = Cert.ReferenceIdeal.RefValue.agg (X (Proc.devRef .tc main_v0)) (X (Proc.devRef .tc main_arg1)) := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [where_plain, reshape_plain_src _ rfl, reshape_plain_dst _ rfl]
  rfl

set_option maxRecDepth 8192 in
set_option maxHeartbeats 4000000 in
/-- The convolution's bias as region 1 finds it: a one-row array whose row is the bias vector. -/
theorem bias0_after (l : Fin 100) :
    StableHlo.after hostOps1_2 (StableHlo.after hostOps1_1 (StableHlo.after hostOps1 X)) (Proc.devRef .tc main_v44) (ix2 (0 : Fin 1) l) = X (Proc.devRef .tc main_arg3) (ix1 l) := by
  have h : StableHlo.after hostOps1_2 (StableHlo.after hostOps1_1 (StableHlo.after hostOps1 X)) (Proc.devRef .tc main_v44)
      = shapeCast S1x100 (X (Proc.devRef .tc main_arg3)) shapeCasts_S100_S1x100 := by
    after_results_simp <;> rfl
  rw [h]
  exact shapeCast_a_1a_apply _ _ 0 l

set_option maxRecDepth 8192 in
set_option maxHeartbeats 4000000 in
/-- The first dense layer's bias as region 1 finds it. -/
theorem bias1_after (k : Fin 60) :
    StableHlo.after hostOps1_2 (StableHlo.after hostOps1_1 (StableHlo.after hostOps1 X)) (Proc.devRef .tc main_v45) (ix2 (0 : Fin 1) k) = X (Proc.devRef .tc main_arg5) (ix1 k) := by
  have h : StableHlo.after hostOps1_2 (StableHlo.after hostOps1_1 (StableHlo.after hostOps1 X)) (Proc.devRef .tc main_v45)
      = shapeCast S1x60 (X (Proc.devRef .tc main_arg5)) shapeCasts_S60_S1x60 := by
    after_results_simp <;> rfl
  rw [h]
  exact shapeCast_a_1a_apply _ _ 0 k

set_option maxRecDepth 8192 in
set_option maxHeartbeats 4000000 in
/-- The second dense layer's bias as region 1 finds it. -/
theorem bias2_after (q : Fin 100) :
    StableHlo.after hostOps1_2 (StableHlo.after hostOps1_1 (StableHlo.after hostOps1 X)) (Proc.devRef .tc main_v46) (ix2 (0 : Fin 1) q) = X (Proc.devRef .tc main_arg7) (ix1 q) := by
  have h : StableHlo.after hostOps1_2 (StableHlo.after hostOps1_1 (StableHlo.after hostOps1 X)) (Proc.devRef .tc main_v46)
      = shapeCast S1x100 (X (Proc.devRef .tc main_arg7)) shapeCasts_S100_S1x100 := by
    after_results_simp <;> rfl
  rw [h]
  exact shapeCast_a_1a_apply _ _ 0 q

set_option maxRecDepth 8192 in
set_option maxHeartbeats 4000000 in
/-- No host operation writes the first dense weight. -/
theorem w1_after : StableHlo.after hostOps1_2 (StableHlo.after hostOps1_1 (StableHlo.after hostOps1 X)) (Proc.devRef .tc main_arg4) = X (Proc.devRef .tc main_arg4) := by
  after_results_simp <;> rfl

set_option maxRecDepth 8192 in
set_option maxHeartbeats 4000000 in
/-- No host operation writes the second dense weight. -/
theorem w2_after : StableHlo.after hostOps1_2 (StableHlo.after hostOps1_1 (StableHlo.after hostOps1 X)) (Proc.devRef .tc main_arg6) = X (Proc.devRef .tc main_arg6) := by
  after_results_simp <;> rfl

end Cert.KernelIdeal.HostValue

end
-- ==== Proof.KernelValue.lean ====
/-
  The idealized kernel's result as the specification's function of its arguments, read off the segment boundaries.

  The last boundary's contents give the result buffer region 1's output array after its write-backs: `head` of what
  region 1 found (the blocks-to-array step for the head). What it found in its aggregate window is, through the three host
  stretches, `agg` of region 0's result array and the edge list; region 0's result array is `lin x W` of the launch contents
  (the blocks-to-array step for the linear transform), and no segment before it wrote the edge list, the biases or the
  weights. Hence the result is `head (agg (lin x W) e) b₀ W₁ b₁ W₂ b₂` of the launch contents.
-/
import proofs.«138535_j85607288143885_2_alg».proof.Proof.Gen.KernelIdeal.Frame
import proofs.«138535_j85607288143885_2_alg».proof.Proof.LinValue
import proofs.«138535_j85607288143885_2_alg».proof.Proof.HeadValue
import proofs.«138535_j85607288143885_2_alg».proof.Proof.HostValue

noncomputable section

namespace Cert.KernelIdeal.ResultValue

open Cert.KernelIdeal Cert.KernelIdeal.Gen Cert.GcnSpec Idealize.ShloMosaic Idealize.ShloMosaic.TcCoe Idealize.SL.Sem Idealize.ShloMosaic.ValueIdx

variable (m : (ℓ : Loc nD τ sig) → Buf (Elt Ideal) ℓ) (ρ : Dev nD → PrngReg)

/-- Region 0 leaves an argument it does not write as launched. -/
theorem kept1 (c : Dev nD) (b : Ref sig .tc) (hb : ∀ w, Pipeline.arrRef spec0 w ≠ b) :
    W1 m ρ c (Proc.devRef .tc b) = m ((c.tc : Thread nD τ).loc b) := W1_of_ne m ρ c b hb

/-- After region 0 its result array is `lin x W` of the launch contents. -/
theorem lin_at_exit (c : Dev nD) :
    W1 m ρ c (Proc.devRef .tc main_v0) = lin (m ((c.tc : Thread nD τ).loc main_arg0)) (m ((c.tc : Thread nD τ).loc main_arg2)) :=
  (W1_arr m ρ c 2).trans (Cert.KernelIdeal.LinValue.final_lin (V0 m ρ) c)

/-- Region 1 finds in its aggregate window the edge aggregation of `lin x W`. -/
theorem agg_at_entry (c : Dev nD) :
    V4 m ρ c main_v43 = Cert.ReferenceIdeal.RefValue.agg (lin (m ((c.tc : Thread nD τ).loc main_arg0)) (m ((c.tc : Thread nD τ).loc main_arg2))) (m ((c.tc : Thread nD τ).loc main_arg1)) := by
  refine (Cert.KernelIdeal.HostValue.agg_after (W1 m ρ c)).trans ?_
  rw [lin_at_exit, kept1 m ρ c main_arg1 (by decide)]

/-- THE KERNEL'S RESULT: the last boundary's contents at the result buffer. -/
theorem result_eq (c : Dev nD) :
    W5 m ρ c (Proc.devRef .tc main_v47)
      = head (Cert.ReferenceIdeal.RefValue.agg (lin (m ((c.tc : Thread nD τ).loc main_arg0)) (m ((c.tc : Thread nD τ).loc main_arg2))) (m ((c.tc : Thread nD τ).loc main_arg1)))
        (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W5_arr m ρ c 6).trans ?_
  have hb0 : ∀ l : Fin 100, V4 m ρ c main_v44 (ix2 (0 : Fin 1) l) = (m ((c.tc : Thread nD τ).loc main_arg3)) (ix1 l) := fun l =>
    (Cert.KernelIdeal.HostValue.bias0_after (W1 m ρ c) l).trans (congrFun (kept1 m ρ c main_arg3 (by decide)) (ix1 l))
  have hb1 : ∀ k : Fin 60, V4 m ρ c main_v45 (ix2 (0 : Fin 1) k) = (m ((c.tc : Thread nD τ).loc main_arg5)) (ix1 k) := fun k =>
    (Cert.KernelIdeal.HostValue.bias1_after (W1 m ρ c) k).trans (congrFun (kept1 m ρ c main_arg5 (by decide)) (ix1 k))
  have hb2 : ∀ q : Fin 100, V4 m ρ c main_v46 (ix2 (0 : Fin 1) q) = (m ((c.tc : Thread nD τ).loc main_arg7)) (ix1 q) := fun q =>
    (Cert.KernelIdeal.HostValue.bias2_after (W1 m ρ c) q).trans (congrFun (kept1 m ρ c main_arg7 (by decide)) (ix1 q))
  have hw1 : V4 m ρ c main_arg4 = (m ((c.tc : Thread nD τ).loc main_arg4)) :=
    (Cert.KernelIdeal.HostValue.w1_after (W1 m ρ c)).trans (kept1 m ρ c main_arg4 (by decide))
  have hw2 : V4 m ρ c main_arg6 = (m ((c.tc : Thread nD τ).loc main_arg6)) :=
    (Cert.KernelIdeal.HostValue.w2_after (W1 m ρ c)).trans (kept1 m ρ c main_arg6 (by decide))
  rw [Cert.KernelIdeal.HeadValue.final_head (V4 m ρ) c _ _ _ hb0 hb1 hb2, agg_at_entry, hw1, hw2]

end Cert.KernelIdeal.ResultValue

end
-- ==== Proof.lean ====
/-
  A graph-convolution block — a linear transform of the node features, a degree-normalised aggregation over the edge list
  with self loops, a bias and a rectifier, then a two-layer `tanh` head — as two Pallas kernels around host gather /
  scatter-add glue, against the same block written in plain jnp.

  On the extended reals both programs compute `head (agg (lin x W) e) b₀ W₁ b₁ W₂ b₂` (Proof/Spec.lean):

    • `lin x W = x · Wᵀ`. The first kernel computes it row block by row block, ten blocks of 10000 rows, each a block product
      into a zero accumulator (the roundings to bf16 on the way in are the identity here); the reference by one `dot_general`.
      Entry (r, j) is `∑ₖ x[r,k]·W[j,k]` on both sides, and the ten row blocks tile the array.
    • `agg`: the normalised gather / scatter-add. Both programs apply the same chain of host operations to `lin x W` and the
      edge list; it is carried as one function and never opened, so nothing is asked of the edge indices.
    • `head`: the second kernel computes bias + rectifier + two dense `tanh` layers row block by row block, the reference on
      whole arrays; entry (r, j) is `tanh (∑ₖ tanh (∑ₗ max (a[r,l] + b₀[l]) 0 · W₁[k,l] + b₁[k]) · W₂[j,k] + b₂[j])` on both sides.

  The two sides are the same finite sums of products, term for term, so no law of the extended reals that could fail at an
  infinity is used and the precondition (finite inputs) is never opened. The three frames are the programs' runs with the
  results dropped; the idealization rewrote nothing, so `preserves` is `True`.
-/
import proofs.«138535_j85607288143885_2_alg».proof.Defs
import proofs.«138535_j85607288143885_2_alg».proof.Proof.Gen.Kernel
import proofs.«138535_j85607288143885_2_alg».proof.Proof.Gen.Kernel.Frame
import proofs.«138535_j85607288143885_2_alg».proof.Proof.Gen.KernelIdeal
import proofs.«138535_j85607288143885_2_alg».proof.Proof.Gen.KernelIdeal.Frame
import proofs.«138535_j85607288143885_2_alg».proof.Proof.Gen.ReferenceIdeal
import proofs.«138535_j85607288143885_2_alg».proof.Proof.Gen.Pre_finite_inputs
import proofs.«138535_j85607288143885_2_alg».proof.Proof.RefRun
import proofs.«138535_j85607288143885_2_alg».proof.Proof.RefValue
import proofs.«138535_j85607288143885_2_alg».proof.Proof.KernelRun
import proofs.«138535_j85607288143885_2_alg».proof.Proof.KernelValue
import Idealize.ShloMosaic.Adequacy
import Idealize.ShloMosaic.Init

noncomputable section

namespace Cert.Proof

open Idealize.ShloMosaic Idealize.SL.Sem Cert.GcnSpec

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both idealized programs end with the result at
    `head (agg (lin x W) e) b₀ W₁ b₁ W₂ b₂` of the kernel's launch contents. -/
theorem algebraic : Cert.algebraic_KernelIdeal_ReferenceIdeal := by
  intro m ρ m' ρ' _ hagree
  refine ⟨fun c => head (Cert.ReferenceIdeal.RefValue.agg
      (lin (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg1)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.ResultValue.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
